-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  let main_v4 : FVec F S32x1x1024x1024 .f32 := Host.absf main_arg1
  let main_cst_0 : FVec F S_ .f32 := constant S_ .f32 0x7F800000#32
  let main_v5 : FVec F S32x1x1024x1024 .f32 := broadcastInDim S32x1x1024x1024 ![] bcast_S_S32x1x1024x1024 main_cst_0
  let main_v6 : IVec S32x1x1024x1024 1 := cmpf .olt main_v4 main_v5
  let main_c_1 : IVec S_ 1 := constantI S_ 1 1#1
  let main_v7 : IVec S_ 1 := (fun x v => Host.reduce IntOp.andi x v reducesTo_S32x1x1024x1024_S_d0_1_2_3 h_S_) main_v6 main_c_1
  let main_v8 : IVec S_ 1 := andi main_v3 main_v7
  main_v8
-- ==== Kernel.lean ====
abbrev S32x1x1024x1024 : Shape := ⟨4, ![32, 1, 1024, 1024]⟩
abbrev S1x1 : Shape := ⟨2, ![1, 1]⟩
abbrev S1x1x1024x1024 : Shape := ⟨4, ![1, 1, 1024, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S1x1, .f32⟩
  | .hbm, ⟨3, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x1x1024x1024.size a
  hwx0_0 : ∀ i : grid0.Coords, EltTy.bits .f32 = 32 ∨ (Rect.block (s := S32x1x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x1x1024x1024.size a
  hwx0_1 : ∀ i : grid0.Coords, EltTy.bits .f32 = 32 ∨ (Rect.block (s := S32x1x1024x1024) S1x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S_ : Shape := ⟨0, ![]⟩
abbrev S32x1 : Shape := ⟨2, ![32, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S32x1x1024x1024, .f32⟩
  | .hbm, ⟨2, _⟩ => ⟨S_, .f32⟩
  | .hbm, ⟨3, _⟩ => ⟨S32x1x1024x1024, .f32⟩
  | .hbm, ⟨4, _⟩ => ⟨S32x1x1024x1024, .i1⟩
  | .hbm, ⟨5, _⟩ => ⟨S_, .f32⟩
  | .hbm, ⟨6, _⟩ => ⟨S32x1x1024x1024, .f32⟩
  | .hbm, ⟨7, _⟩ => ⟨S32x1x1024x1024, .i1⟩
  | .hbm, ⟨8, _⟩ => ⟨S32x1x1024x1024, .i1⟩
  | .hbm, ⟨9, _⟩ => ⟨S32x1x1024x1024, .i32⟩
  | .hbm, ⟨10, _⟩ => ⟨S_, .i32⟩
  | .hbm, ⟨11, _⟩ => ⟨S32x1, .i32⟩
  | .hbm, ⟨12, _⟩ => ⟨S32x1, .f32⟩
  | .hbm, ⟨13, _⟩ => ⟨S32x1x1024x1024, .i1⟩
  | .hbm, ⟨14, _⟩ => ⟨S32x1x1024x1024, .i32⟩
  | .hbm, ⟨15, _⟩ => ⟨S_, .i32⟩
  | .hbm, ⟨16, _⟩ => ⟨S32x1, .i32⟩
  | .hbm, ⟨17, _⟩ => ⟨S32x1, .f32⟩
  | .hbm, ⟨18, _⟩ => ⟨S_, .f32⟩
  | .hbm, ⟨19, _⟩ => ⟨S32x1, .f32⟩
  | .hbm, ⟨20, _⟩ => ⟨S32x1, .f32⟩
  | .hbm, ⟨21, _⟩ => ⟨S32x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S32x1x1024x1024 : S_.BroadcastsInDim S32x1x1024x1024 (![] : Fin 0 → Fin S32x1x1024x1024.rank)
  natLt_1_32 : 1 < 32
  reducesTo_S32x1x1024x1024_S32x1_d2_3 : S32x1x1024x1024.ReducesTo [2, 3] S32x1
  h_S_ : 0 < S_.numel
  bcast_S_S32x1 : S_.BroadcastsInDim S32x1 (![] : Fin 0 → Fin S32x1.rank)
  reducesTo_S32x1_S_d0_1 : S32x1.ReducesTo [0, 1] S_

variable [Facts₀]

class Facts : Prop extends Facts₀ where

variable [Facts]
-- ==== Proof.Spec.lean ====
/-
  The Jaccard loss of two stacks of 32 images, each 1024 × 1024, as ONE function of the two argument arrays over
  the extended reals: an entry counts when it equals one; for image b the intersection count I_b is the number of
  positions where both arrays count, the union count U_b the number where at least one does, the ratio is
  I_b / (U_b + ε); the loss is the sum of the 32 ratios times 100/32.

  Also here, the three facts that join the two programs to that function:
  * a 32-bit wrapping sum of at most 2^20 zero-or-one words never wraps, so read as an integer it is the number
    of ones — the sum over the reals of the same zero-or-one values;
  * the indices of a [32, 1, 1024, 1024] array that lie over (b, 0) of its [32, 1] reduction along the last two
    axes are the 1024 × 1024 pairs (r, c);
  * dividing by 32 and then multiplying by 100 is multiplying by 3.125, on every extended real.
-/
import Idealize.ShloMosaic.PureOps.Ideal
import Idealize.ShloMosaic.PureOps.Ideal.Laws
import Idealize.ShloMosaic.PureOps.Reduce
import Idealize.ShloMosaic.Lib.ValueIdx

noncomputable section

namespace Jaccard

open Idealize.ShloMosaic Idealize.ShloMosaic.ValueIdx

/-- The shape of each argument: 32 images, one channel, 1024 rows, 1024 columns. -/
abbrev Arr : Shape := ⟨4, ![32, 1, 1024, 1024]⟩
/-- One image. -/
abbrev Img : Shape := ⟨2, ![1024, 1024]⟩
/-- One number per image. -/
abbrev PerImg : Shape := ⟨2, ![32, 1]⟩

/-! ## The function -/

/-- Whether an entry equals one, as a bit. -/
def isOne (x : Ideal .f32) : BitVec 1 := FloatOps.cmpf .oeq x (FloatOps.ofBits .f32 0x3F800000#32)

/-- A bit as the extended real 0 or 1 (widened to 32 bits and read as an integer). -/
def bitVal (β : BitVec 1) : Ideal .f32 := FloatOps.sitofp .f32 (β.setWidth 32)

/-- The number of positions of an image pair where both entries are one. -/
def interOf (p q : Img.Idx → Ideal .f32) : EReal :=
  ∑ r : Fin 1024, ∑ c : Fin 1024, bitVal (IntOp.andi (isOne (p (ix2 r c))) (isOne (q (ix2 r c))))

/-- The number of positions where at least one entry is one. -/
def unionOf (p q : Img.Idx → Ideal .f32) : EReal :=
  ∑ r : Fin 1024, ∑ c : Fin 1024, bitVal (IntOp.ori (isOne (p (ix2 r c))) (isOne (q (ix2 r c))))

/-- The ratio of an image pair: intersection over union plus ε. -/
def ratioOf (p q : Img.Idx → Ideal .f32) : EReal :=
  Ideal.div (interOf p q) (unionOf p q + Ideal.ofBits .f32 0x33D6BF95#32)

/-- Image b of an argument array. -/
def image (a : Arr.Idx → Ideal .f32) (b : Fin 32) : Img.Idx → Ideal .f32 :=
  fun j => a (ix4 b (0 : Fin 1) (j 0) (j 1))

/-- The ratio of image n of the two arrays (zero past the last image). -/
def ratio (a t : Arr.Idx → Ideal .f32) (n : ℕ) : EReal :=
  if h : n < 32 then ratioOf (image a ⟨n, h⟩) (image t ⟨n, h⟩) else 0

/-- The loss: the 32 ratios summed, times 3.125. (Never unfolded by a comparison of terms: its sums range over
    2^20 positions.) -/
@[irreducible] def loss (a t : Arr.Idx → Ideal .f32) : EReal :=
  (∑ n ∈ Finset.range 32, ratio a t n) * Ideal.ofBits .f32 0x40480000#32

/-! ## Zero-or-one words -/

theorem bitVal_eq (β : BitVec 1) : bitVal β = ((β.toNat : ℝ) : EReal) := by
  have hlt : β.toNat < 2 := β.isLt
  have hn : (β.setWidth 32).toNat = β.toNat := by
    rw [BitVec.toNat_setWidth]; exact Nat.mod_eq_of_lt (by omega)
  show (((β.setWidth 32).toInt : ℝ) : EReal) = _
  rw [BitVec.toInt_eq_toNat_of_lt (by rw [hn]; omega), hn, Int.cast_natCast]

/-- A wrapping sum of 32-bit words from zero is the sum of their values, modulo 2^32. -/
theorem fold_addi_eq {ι : Type*} (S : Finset ι) (f : ι → BitVec 32) :
    S.fold IntOp.addi 0#32 f = BitVec.ofNat 32 (∑ i ∈ S, (f i).toNat) := by
  induction S using Finset.cons_induction with
  | empty => simp
  | cons a S ha ih =>
    rw [Finset.fold_cons, Finset.sum_cons, ih]
    apply BitVec.eq_of_toNat_eq
    simp [IntOp.addi, BitVec.toNat_add, BitVec.toNat_ofNat]

/-- A real sum, read among the extended reals, is the sum of the extended reals. -/
theorem coe_sum {ι : Type*} (S : Finset ι) (f : ι → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- A wrapping sum of fewer than 2^31 zero-or-one words, read as a signed integer, is the number of ones. -/
theorem toInt_fold_bits {ι : Type*} (S : Finset ι) (β : ι → BitVec 1) (hS : S.card < 2 ^ 31) :
    (((S.fold IntOp.addi 0#32 fun i => (β i).setWidth 32).toInt : ℝ) : EReal) = ∑ i ∈ S, bitVal (β i) := by
  rw [fold_addi_eq]
  have hn : ∀ i, ((β i).setWidth 32).toNat = (β i).toNat := fun i => by
    have hlt : (β i).toNat < 2 := (β i).isLt
    rw [BitVec.toNat_setWidth]; exact Nat.mod_eq_of_lt (by omega)
  have hle : ∑ i ∈ S, ((β i).setWidth 32).toNat ≤ S.card := by
    calc ∑ i ∈ S, ((β i).setWidth 32).toNat ≤ ∑ _i ∈ S, 1 :=
          Finset.sum_le_sum fun i _ => by rw [hn]; have := (β i).isLt; omega
      _ = S.card := by simp
  have hsmall : (BitVec.ofNat 32 (∑ i ∈ S, ((β i).setWidth 32).toNat)).toNat = ∑ i ∈ S, ((β i).setWidth 32).toNat := by
    rw [BitVec.toNat_ofNat]; exact Nat.mod_eq_of_lt (by omega)
  rw [BitVec.toInt_eq_toNat_of_lt (by rw [hsmall]; omega), hsmall, Int.cast_natCast, Nat.cast_sum, coe_sum]
  exact Finset.sum_congr rfl fun i _ => by rw [bitVal_eq, hn]

/-! ## The indices over one image -/

/-- The indices of the argument shape that the reduction along the last two axes sends to j are the pairs
    (row, column) under image j 0. -/
theorem sum_over_image {M : Type*} [AddCommMonoid M] (h : Arr.ReducesTo [2, 3] PerImg) (j : PerImg.Idx) (g : Arr.Idx → M) :
    ∑ i ∈ Finset.univ.filter (fun i => h.drop i = j), g i
      = ∑ r : Fin 1024, ∑ c : Fin 1024, g (ix4 (j 0) (0 : Fin 1) r c) := by
  rw [← Fintype.sum_prod_type (f := fun p : Fin 1024 × Fin 1024 => g (ix4 (j 0) (0 : Fin 1) p.1 p.2))]
  have back : ∀ i : Arr.Idx, h.drop i = j → ix4 (j 0) (0 : Fin 1) (i 2) (i 3) = i := fun i hj => by
    funext a
    apply Fin.ext
    match a with
    | ⟨0, _⟩ => show (j 0).val = (i 0).val; rw [← hj]; exact h.drop_apply_val_of_eq i 0 0
    | ⟨1, _⟩ => show 0 = (i 1).val; have : (i 1).val < 1 := (i 1).isLt; omega
    | ⟨2, _⟩ => rfl
    | ⟨3, _⟩ => rfl
  refine Finset.sum_nbij' (fun i => (i 2, i 3)) (fun p => ix4 (j 0) (0 : Fin 1) p.1 p.2) ?_ ?_ ?_ ?_ ?_
  · intro i _; exact Finset.mem_univ _
  · intro p _
    refine Finset.mem_filter.2 ⟨Finset.mem_univ _, ?_⟩
    funext b
    apply Fin.ext
    match b with
    | ⟨0, _⟩ => exact h.drop_apply_val_of_eq _ 0 0
    | ⟨1, _⟩ =>
      have h1 : (j 1).val < 1 := (j 1).isLt
      refine (h.drop_apply_val_of_eq _ 1 1).trans ?_
      show 0 = (j 1).val
      omega
  · intro i hi; exact back i (Finset.mem_filter.1 hi).2
  · intro p _; rfl
  · intro i hi; exact congrArg g (back i (Finset.mem_filter.1 hi).2).symm

/-- The host's integer count over one image, converted to a float, is the sum of the bits' values. -/
theorem count_eq (h : Arr.ReducesTo [2, 3] PerImg) (hu : 0 < (⟨0, ![]⟩ : Shape).numel) (β : Arr.Idx → BitVec 1)
    (x : Arr.Idx → BitVec 32) (hx : x = fun i => (β i).setWidth 32)
    (init : (⟨0, ![]⟩ : Shape).Idx → BitVec 32) (hinit : init = fun _ => 0#32) (j : PerImg.Idx) :
    (FloatOps.sitofp (F := Ideal) .f32 (Host.reduce IntOp.addi x init h hu j) : EReal)
      = ∑ r : Fin 1024, ∑ c : Fin 1024, bitVal (β (ix4 (j 0) (0 : Fin 1) r c)) := by
  subst hx hinit
  rw [Host.reduce_eq_fold]
  have hcard : (Finset.univ.filter fun i : Arr.Idx => h.drop i = j).card < 2 ^ 31 := by
    have e := sum_over_image (M := ℕ) h j (fun _ => 1)
    rw [Finset.sum_const, smul_eq_mul, mul_one] at e
    rw [e]; simp
  exact (toInt_fold_bits _ β hcard).trans (sum_over_image h j fun i => bitVal (β i))

/-! ## The constants and the final scale -/

theorem ofBits_32 : Ideal.ofBits .f32 0x42000000#32 = ((32 : ℝ) : EReal) := by
  simp [Ideal.ofBits, Ideal.ieee, -EReal.coe_mul]; norm_num

theorem ofBits_100 : Ideal.ofBits .f32 0x42C80000#32 = ((100 : ℝ) : EReal) := by
  simp [Ideal.ofBits, Ideal.ieee, -EReal.coe_mul]; norm_num

theorem ofBits_25_8 : Ideal.ofBits .f32 0x40480000#32 = ((25 / 8 : ℝ) : EReal) := by
  simp [Ideal.ofBits, Ideal.ieee, -EReal.coe_mul]; norm_num

/-- The mean over 32 images times 100 is the sum times 3.125, at the infinities too. -/
theorem mean_times_100 (x : EReal) :
    Ideal.div x (Ideal.ofBits .f32 0x42000000#32) * Ideal.ofBits .f32 0x42C80000#32 = x * Ideal.ofBits .f32 0x40480000#32 := by
  rw [ofBits_32, ofBits_100, ofBits_25_8, Ideal.div_coe (by norm_num), mul_assoc, ← EReal.coe_mul]
  congr 2; norm_num

end Jaccard

end
-- ==== Proof.KernelPay.lean ====
/-
  What the kernel's body computes at one grid point, read at an index over the extended reals. The body holds one
  image of each argument (a [1, 1, 1024, 1024] block). It compares every entry with one, takes the and / or of the
  two bits, turns each into 0 or 1, sums along the columns and then along the rows (so each count is a double
  sum over rows and columns), divides the intersection count by the union count plus ε, and adds the quotient to
  the running total it finds in the [1, 1] output block. At the first point the running total it finds is the zero
  it has just stored; at the last point it stores the total times 3.125.
-/
import proofs.«149590_j56547539419669_2_alg».proof.Proof.Gen.KernelIdeal.Skeleton
import proofs.«149590_j56547539419669_2_alg».proof.Proof.Spec
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Jaccard

/-- A length-a vector cast to an [a, 1] column reads, at (i, u), the vector at i. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The image a block holds: its entry (0, 0, r, c) at (r, c). -/
def blockImage (x : Vec Ideal S1x1x1024x1024 .f32) : Img.Idx → Ideal .f32 :=
  fun j => x (ix4 (0 : Fin 1) (0 : Fin 1) (j 0) (j 1))

/-- Dropping the two leading unit axes of a block reads (r, c) at (0, 0, r, c). -/
theorem squeeze_apply (x : Vec Ideal S1x1x1024x1024 .f32) (r c : Fin 1024) :
    shapeCast S1024x1024 x shapeCasts_S1x1x1024x1024_S1024x1024 (ix2 r c) = x (ix4 (0 : Fin 1) (0 : Fin 1) r c) :=
  shapeCast_apply x _ _ _ (by
    rw [Shape.rowMajor_val_four, Shape.rowMajor_val_two]
    show ((0 * 1 + 0) * 1024 + r.val) * 1024 + c.val = r.val * 1024 + c.val
    omega)

/-- The two sums of the body — along the columns, then along the rows, each with its keepdims cast — leave in the
    [1, 1] result the double sum of the matrix over rows and columns. -/
theorem total_apply (B : FVec Ideal S1024x1024 .f32) (p q : Fin 1) :
    shapeCast S1x1 (multiReduction .add [0] S1 (shapeCast S1024x1 (multiReduction .add [1] S1024 B 0x00000000#32
        reduces_S1024x1024_S1024 (.inl rfl) rfl) shapeCasts_S1024_S1024x1) 0x00000000#32 reduces_S1024x1_S1 (.inl rfl) rfl)
        shapeCasts_S1_S1x1 (ix2 p q)
      = ∑ r : Fin 1024, ∑ c : Fin 1024, B (ix2 r c) := by
  refine (shapeCast_a_1a_apply _ shapeCasts_S1_S1x1 p q).trans ?_
  refine (Ideal.multiReduction_add_single _ 0x00000000#32 reduces_S1024x1_S1 (.inl rfl) rfl (ix1 q)).trans ?_
  refine Finset.sum_congr rfl fun r _ => ?_
  have e1 : reduces_S1024x1_S1.lift (ix1 q) r = ix2 r q := by
    funext a; apply Fin.ext
    match a with
    | ⟨0, _⟩ => rfl
    | ⟨1, _⟩ => rfl
  refine (congrArg _ e1).trans ?_
  refine (shapeCast_column_apply _ shapeCasts_S1024_S1024x1 r q).trans ?_
  refine (Ideal.multiReduction_add_single B 0x00000000#32 reduces_S1024x1024_S1024 (.inl rfl) rfl (ix1 r)).trans ?_
  refine Finset.sum_congr rfl fun c _ => congrArg B ?_
  funext a; apply Fin.ext
  match a with
  | ⟨0, _⟩ => rfl
  | ⟨1, _⟩ => rfl

/-- The accumulating store: the running total found plus the ratio of the two images held. -/
theorem pay3_apply (x0 x1 : Vec Ideal S1x1x1024x1024 .f32) (acc : Vec Ideal S1x1 .f32) (p q : Fin 1) :
    k0_pay3 (F := Ideal) x0 x1 acc (ix2 p q) = acc (ix2 p q) + ratioOf (blockImage x0) (blockImage x1) := by
  unfold k0_pay3
  dsimp only
  refine (addf_apply _ _ _).trans ?_
  refine congrArg₂ (fun u v : EReal => u + v) (congrFun (shapeCast_self acc shapeCasts_S1x1_S1x1) (ix2 p q)) ?_
  refine (divf_apply _ _ _).trans ?_
  unfold ratioOf
  refine congrArg₂ Ideal.div ?_ ?_
  · refine (total_apply _ p q).trans ?_
    unfold interOf
    refine Finset.sum_congr rfl fun r _ => Finset.sum_congr rfl fun c _ => ?_
    show bitVal (IntOp.andi (isOne (shapeCast S1024x1024 x0 shapeCasts_S1x1x1024x1024_S1024x1024 (ix2 r c)))
      (isOne (shapeCast S1024x1024 x1 shapeCasts_S1x1x1024x1024_S1024x1024 (ix2 r c)))) = _
    rw [squeeze_apply, squeeze_apply]
    rfl
  · refine (addf_apply _ _ _).trans ?_
    refine congrArg₂ (fun u v : EReal => u + v) ?_ rfl
    refine (total_apply _ p q).trans ?_
    unfold unionOf
    refine Finset.sum_congr rfl fun r _ => Finset.sum_congr rfl fun c _ => ?_
    show bitVal (IntOp.ori (isOne (shapeCast S1024x1024 x0 shapeCasts_S1x1x1024x1024_S1024x1024 (ix2 r c)))
      (isOne (shapeCast S1024x1024 x1 shapeCasts_S1x1x1024x1024_S1024x1024 (ix2 r c)))) = _
    rw [squeeze_apply, squeeze_apply]
    rfl

/-- The store of the first point: zero. -/
theorem pay2_apply (y : S1x1.Idx) : k0_pay2 (F := Ideal) y = 0 := by
  show Ideal.ofBits .f32 0x00000000#32 = 0
  exact Ideal.ofBits_zero_f32

/-- The store of the last point: the total found, times 3.125. -/
theorem pay1_apply (acc : Vec Ideal S1x1 .f32) (y : S1x1.Idx) :
    k0_pay1 (F := Ideal) acc y = acc y * Ideal.ofBits .f32 0x40480000#32 := by
  unfold k0_pay1
  refine (mulf_apply _ _ _).trans ?_
  exact congrArg₂ (fun u v : EReal => u * v) (congrFun (shapeCast_self acc shapeCasts_S1x1_S1x1) y) rfl

end Cert.KernelIdeal.Pay

end
-- ==== Proof.KernelValue.lean ====
/-
  What the kernel's program leaves in its result, over the extended reals. The grid has 32 points, one per image;
  the [1, 1] output block stays in its staging buffer from the first point to the last and is written back once,
  after the last. At the first point the body stores zero and then zero plus the first ratio; at each later point the
  total found plus that image's ratio; at the last point it also multiplies the total by 3.125. So after point n the
  buffer holds the sum of the ratios of images 0 … n (by induction on the point), after the last point the loss, and
  the one write-back puts the loss in the result array, which the reshape after the call reads as a scalar.
-/
import proofs.«149590_j56547539419669_2_alg».proof.Proof.Gen.KernelIdeal.Frame
import proofs.«149590_j56547539419669_2_alg».proof.Proof.KernelPay
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pay Idealize.ShloMosaic.ValueIdx Jaccard

/-! ## What each case of the body leaves in the output block, at any instance -/

section Pieces

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A middle point: the one store is the accumulating one, over the total the block held. -/
theorem out_B (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (hc0 : ¬cond0_0 i) (hc1 : ¬cond0_1 i) (x0 x1 : Vec F S1x1x1024x1024 .f32) (xo : Vec F S1x1 .f32) :
    out0_B_2 c i a1 h1 a2 h2 a3 h3 hc0 hc1 x0 x1 xo = k0_pay3 x0 x1 xo := by
  unfold out0_B_2
  rw [View.read_writes_eq_canon _ _ _ (cover0_B_2 c i a1 h1 a2 h2 a3 h3 hc0 hc1 x0 x1 xo)]
  unfold kernelRun0_B
  dsimp only
  rw [View.canon_unit_zero (S := S1x1) hz2]
  simp only [View.readAt_eq_ld, h1.read_unread, h2.read_unread, h3.read_unread,
    View.ld_unit_zero (S := S1x1x1024x1024) hz4, View.ld_unit_zero (S := S1x1) hz2]

/-- The first point: zero is stored and read back, then the accumulating store. -/
theorem out_A (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (hc0 : cond0_0 i) (hc1 : ¬cond0_1 i) (x0 x1 : Vec F S1x1x1024x1024 .f32) :
    out0_A_2 c i a1 h1 a2 h2 a3 h3 hc0 hc1 x0 x1 = k0_pay3 x0 x1 (k0_pay2 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S1x1x1024x1024) hz4]

/-- The last point: the accumulating store is read back and stored again times 3.125. -/
theorem out_C (c : Dev nD) (i : grid0.Coords) (a1 : Memref sig .tc .vmem S1x1x1024x1024 .f32) (h1 : a1.IsWhole)
    (a2 : Memref sig .tc .vmem S1x1x1024x1024 .f32) (h2 : a2.IsWhole) (a3 : Memref sig .tc .vmem S1x1 .f32) (h3 : a3.IsWhole)
    (hc0 : ¬cond0_0 i) (hc1 : cond0_1 i) (x0 x1 : Vec F S1x1x1024x1024 .f32) (xo : Vec F S1x1 .f32) :
    out0_C_2 c i a1 h1 a2 h2 a3 h3 hc0 hc1 x0 x1 xo = k0_pay1 (k0_pay3 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S1x1x1024x1024) hz4, View.ld_unit_zero (S := S1x1) hz2]

end Pieces

/-! ## One point's stores over the extended reals, from coordinate facts about what the body holds -/

/-- The sum of the ratios of images 0 … n. -/
def psum (a t : Arr.Idx → Ideal .f32) (n : ℕ) : EReal := ∑ k ∈ Finset.range (n + 1), ratio a t k

/-- The accumulating store when the blocks held are image n of the two arrays and the total found is s. -/
theorem pay3_point (x0 x1 : Vec Ideal S1x1x1024x1024 .f32) (acc : Vec Ideal S1x1 .f32) (a t : Arr.Idx → Ideal .f32)
    (n : ℕ) (hn : n < 32) (s : EReal) (h0 : blockImage x0 = image a ⟨n, hn⟩) (h1 : blockImage x1 = image t ⟨n, hn⟩)
    (hacc : acc = fun _ => s) : k0_pay3 (F := Ideal) x0 x1 acc = fun _ => s + ratio a t n := by
  funext y
  obtain ⟨p, q, rfl⟩ : ∃ (p : Fin 1) (q : Fin 1), y = ix2 p q := ⟨y 0, y 1, eq_ix2 y⟩
  rw [pay3_apply, h0, h1, hacc]
  unfold ratio
  rw [dif_pos hn]

end Cert.KernelIdeal.KValue

end
-- ==== Proof.KernelRun.lean ====
/-
  What the kernel's program leaves in its result, over the extended reals. The grid has 32 points, one per image;
  the [1, 1] output block stays in its staging buffer from the first point to the last and is written back once,
  after the last. After point n the buffer holds the sum of the ratios of images 0 … n (by induction on the
  point), after the last point the loss, and the one write-back puts the loss in the result array, which the reshape
  after the call reads as a scalar.
-/
import proofs.«149590_j56547539419669_2_alg».proof.Proof.KernelValue

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pay Idealize.ShloMosaic.ValueIdx Jaccard

/-! ## The blocks the body holds at point t are image t of the two arguments -/

section Run

variable (m : (ℓ : Loc nD τ sig) → Buf (Elt Ideal) ℓ) (ρ : Dev nD → PrngReg)

/-- The two input windows' block index at point t is (t, 0, 0, 0); the output's is (0, 0): decided over the grid. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 2) = 0 ∧ win0_2.index t (1 : Fin 2) = 0 :=
  (by decide +kernel : ∀ t : Fin grid0.N, _)

theorem image0 (c : Dev nD) (t : Fin cfg0.N) (ht : t.val < 32) :
    blockImage (iblk m c 0 t) = image (m ((c : Thread nD τ).loc main_arg0)) ⟨t.val, ht⟩ := by
  obtain ⟨e0, e1, e2, e3, -⟩ := idx_facts t
  funext j
  show m ((c : Thread nD τ).loc main_arg0) (((cfg0.win 0).blk t).view.emb (ix4 (0 : Fin 1) (0 : Fin 1) (j 0) (j 1)))
    = m ((c : Thread nD τ).loc main_arg0) (ix4 ⟨t.val, ht⟩ (0 : Fin 1) (j 0) (j 1))
  refine congrArg (m ((c : Thread nD τ).loc main_arg0)) ?_
  funext a; apply Fin.ext
  match a with
  | ⟨0, _⟩ => show win0_0.index t (0 : Fin 4) * 1 + 1 * 0 = t.val; omega
  | ⟨1, _⟩ => show win0_0.index t (1 : Fin 4) * 1 + 1 * 0 = 0; omega
  | ⟨2, _⟩ => show win0_0.index t (2 : Fin 4) * 1024 + 1 * (j 0).val = (j 0).val; omega
  | ⟨3, _⟩ => show win0_0.index t (3 : Fin 4) * 1024 + 1 * (j 1).val = (j 1).val; omega

theorem image1 (c : Dev nD) (t : Fin cfg0.N) (ht : t.val < 32) :
    blockImage (iblk m c 1 t) = image (m ((c : Thread nD τ).loc main_arg1)) ⟨t.val, ht⟩ := by
  obtain ⟨-, -, -, -, e0, e1, e2, e3, -⟩ := idx_facts t
  funext j
  show m ((c : Thread nD τ).loc main_arg1) (((cfg0.win 1).blk t).view.emb (ix4 (0 : Fin 1) (0 : Fin 1) (j 0) (j 1)))
    = m ((c : Thread nD τ).loc main_arg1) (ix4 ⟨t.val, ht⟩ (0 : Fin 1) (j 0) (j 1))
  refine congrArg (m ((c : Thread nD τ).loc main_arg1)) ?_
  funext a; apply Fin.ext
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 1024 + 1 * (j 0).val = (j 0).val; omega
  | ⟨3, _⟩ => show win0_1.index t (3 : Fin 4) * 1024 + 1 * (j 1).val = (j 1).val; omega

/-! ## The running total, by induction on the point -/

/-- Before the last point the output block holds the sum of the ratios of the images met so far. -/
theorem outsAt_eq (c : Dev nD) : ∀ (n : ℕ) (h : n < cfg0.N), n < 31 →
    outsAt0 m c n h = fun _ => psum (m ((c : Thread nD τ).loc main_arg0)) (m ((c : Thread nD τ).loc main_arg1)) n
  | 0, h, _ => by
    refine (outsAt0_A m c ⟨0, h⟩ rfl (by dsimp only; omega)).trans ?_
    refine (out_A c _ _ _ _ _ _ _ _ _ (iblk m c 0 ⟨0, h⟩) (iblk m c 1 ⟨0, h⟩)).trans ?_
    refine (pay3_point _ _ _ _ _ 0 (by omega) 0 (image0 m c ⟨0, h⟩ (by dsimp only; omega)) (image1 m c ⟨0, h⟩ (by dsimp only; omega))
      (funext fun y => pay2_apply y)).trans ?_
    funext _
    simp [psum]
  | n + 1, h, hlt => by
    have hN : cfg0.N = 32 := N_0
    have hB0 : ¬(⟨n + 1, h⟩ : Fin cfg0.N).val % 32 = 0 := by dsimp only; omega
    have hB1 : ¬(⟨n + 1, h⟩ : Fin cfg0.N).val % 32 = 31 := by dsimp only; omega
    refine (outsAt0_B m c ⟨n + 1, h⟩ hB0 hB1).trans ?_
    refine (out_B c _ _ _ _ _ _ _ _ _ (iblk m c 0 ⟨n + 1, h⟩) (iblk m c 1 ⟨n + 1, h⟩) _).trans ?_
    refine (pay3_point _ _ _ _ _ (n + 1) (by omega) _ (image0 m c ⟨n + 1, h⟩ (by dsimp only; omega)) (image1 m c ⟨n + 1, h⟩ (by dsimp only; omega))
      (outsAt_eq c n (Nat.lt_of_succ_lt h) (by omega))).trans ?_
    funext _
    exact (Finset.sum_range_succ _ (n + 1)).symm

/-- After the last point it holds the loss. -/
theorem outsAt_last (c : Dev nD) (t : Fin cfg0.N) (h31 : t.val % 32 = 31) :
    outsAt0 m c t.val t.isLt = fun _ => loss (m ((c : Thread nD τ).loc main_arg0)) (m ((c : Thread nD τ).loc main_arg1)) := by
  have hN : cfg0.N = 32 := N_0
  have ht : t.val = 31 := by have := t.isLt; omega
  have h0 : ¬t.val % 32 = 0 := by omega
  refine (outsAt0_C m c t h0 h31).trans ?_
  refine (out_C c _ _ _ _ _ _ _ _ _ (iblk m c 0 t) (iblk m c 1 t) _).trans ?_
  have hacc := pay3_point _ _ _ _ _ t.val (by omega) _ (image0 m c t (by omega)) (image1 m c t (by omega))
    (outsAt_eq m c (t.val - 1) (Nat.lt_of_le_of_lt (Nat.sub_le _ _) t.isLt) (by omega))
  refine (congrArg k0_pay1 hacc).trans ?_
  funext y
  rw [pay1_apply]
  unfold loss
  refine congrArg (fun u : EReal => u * Ideal.ofBits .f32 0x40480000#32) ?_
  rw [ht]
  exact (Finset.sum_range_succ _ 31).symm

/-! ## The result array and the scalar read from it -/

/-- The [1, 1] result array: the loss. -/
abbrev result (c : Dev nD) : Buf (Elt Ideal) ((c : Thread nD τ).loc main_v0) :=
  fun _ => loss (m ((c : Thread nD τ).loc main_arg0)) (m ((c : Thread nD τ).loc main_arg1))

/-- A write-back of an output block that holds one number everywhere writes that number everywhere. -/
theorem flushed_const (c : Dev nD) (t : Fin cfg0.N) (L : EReal) (h : (dats m 0 c).after 2 t = fun _ => L) :
    (dats m 0 c).flushed 2 t = ((cfg0.win 2).blk t).view.read (Elt Ideal) (fun _ => L) := by
  show (cfg0.win 2).cut (grid0.coords t) ((dats m 0 c).after 2 t) = _
  rw [h]
  rfl

/-- The one write-back, after the last point, writes the loss. -/
theorem flushed_eq (c : Dev nD) (t : Fin cfg0.N) (hf : (cfg0.win 2).flush t = true) :
    (dats m 0 c).flushed 2 t = ((cfg0.win 2).blk t).view.read (Elt Ideal) (result m c) :=
  flushed_const m c t (loss (m ((c : Thread nD τ).loc main_arg0)) (m ((c : Thread nD τ).loc main_arg1)))
    ((after0_2 m c t).trans (outsAt_last m c t ((flush0_2 t).mp hf)))

/-- An index of the result array is in point t's block iff each coordinate is in the block's range. -/
theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The last point's block is the whole result array, so the array ends holding the loss. -/
theorem final (c : Dev nD) : (dats m 0 c).arrAt 2 cfg0.N = result m c :=
  (dats m 0 c).arrAt_eq_of_cover 2 (result m c) (flushed_eq m c) fun i => by
    have hN : cfg0.N = 32 := N_0
    refine ⟨⟨31, by omega⟩, (flush0_2 _).mpr rfl, ?_⟩
    obtain ⟨-, -, -, -, -, -, -, -, e0, e1⟩ := idx_facts ⟨31, by omega⟩
    rw [mem_blk]
    intro a
    have h0 : (i 0).val < 1 := (i 0).isLt
    have h1 : (i 1).val < 1 := (i 1).isLt
    match a with
    | ⟨0, _⟩ => show win0_2.index _ (0 : Fin 2) * 1 ≤ (i 0).val ∧ (i 0).val < win0_2.index _ (0 : Fin 2) * 1 + 1; omega
    | ⟨1, _⟩ => show win0_2.index _ (1 : Fin 2) * 1 ≤ (i 1).val ∧ (i 1).val < win0_2.index _ (1 : Fin 2) * 1 + 1; omega

/-- The reshape after the call reads the [1, 1] array as a scalar: the loss. -/
theorem tail_eq (c : Dev nD) :
    Pipeline.afterTail₀ cfgs (dats m) 0 (V0 m) [hostOps1] c main_v1
      = fun _ => loss (m ((c : Thread nD τ).loc main_arg0)) (m ((c : Thread nD τ).loc main_arg1)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = fun _ => loss (m ((c : Thread nD τ).loc main_arg0)) (m ((c : Thread nD τ).loc main_arg1)) :=
    (Pipeline.withArrays_arr spec0 launch0.win.arr_inj c _ _ 2).trans (final m c)
  rw [hw]
  generalize loss _ _ = L
  funext i
  rfl

/-! ## The run, read -/

/-- The scalar result is no array of the call and lives outside it. -/
theorem v1_rest : main_v1 ∈ Pipeline.restRefs sig (cfgs 0).spec :=
  Pipeline.mem_restRefs_of main_v1 rfl (fun w => by fin_cases w <;> decide)

/-- Every execution of the kernel's program ends with the scalar result at the loss of the two arguments, and the
    arguments as they were. -/
theorem run : θ_run defs (onTc (τ := τ) (main (F := Ideal))) ⟨m, fun _ => 0, ρ⟩ fun r => ∀ c : Dev nD,
      r.2.mem ((c : Thread nD τ).loc main_v1) = (fun _ => loss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Run

end Cert.KernelIdeal.KValue

end
-- ==== Proof.RefValue.lean ====
/-
  The reference computes the loss function of Spec.lean. Read one operation at a time: it compares both arrays with
  one, takes the and / or of the bits, widens them to 32-bit integers and sums those over the rows and columns of each
  image (a wrapping integer sum that cannot wrap: at most 2^20 ones), converts the two counts to floats, divides
  intersection by union plus ε, sums the 32 ratios from zero, divides by 32 and multiplies by 100.
-/
import proofs.«149590_j56547539419669_2_alg».proof.Proof.Gen.ReferenceIdeal.Read
import proofs.«149590_j56547539419669_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Jaccard

/-- The converted intersection count of image a. -/
theorem inter_apply (x0 x1 : (⟨S32x1x1024x1024, .f32⟩ : BufTy).Contents (Elt Ideal)) (a : Fin 32) (b : Fin 1) :
    val_main_v7 (F := Ideal) x0 x1 (ix2 a b) = interOf (image x0 a) (image x1 a) :=
  (count_eq reducesTo_S32x1x1024x1024_S32x1_d2_3 h_S_ (fun i => IntOp.andi (isOne (x0 i)) (isOne (x1 i)))
    (val_main_v5 (F := Ideal) x0 x1) rfl (val_main_c (F := Ideal)) rfl (ix2 a b)).trans rfl

/-- The converted union count of image a. -/
theorem union_apply (x0 x1 : (⟨S32x1x1024x1024, .f32⟩ : BufTy).Contents (Elt Ideal)) (a : Fin 32) (b : Fin 1) :
    val_main_v11 (F := Ideal) x0 x1 (ix2 a b) = unionOf (image x0 a) (image x1 a) :=
  (count_eq reducesTo_S32x1x1024x1024_S32x1_d2_3 h_S_ (fun i => IntOp.ori (isOne (x0 i)) (isOne (x1 i)))
    (val_main_v9 (F := Ideal) x0 x1) rfl (val_main_c_1 (F := Ideal)) rfl (ix2 a b)).trans rfl

/-- The ratio of image a. -/
theorem ratio_apply (x0 x1 : (⟨S32x1x1024x1024, .f32⟩ : BufTy).Contents (Elt Ideal)) (a : Fin 32) (b : Fin 1) :
    val_main_v14 (F := Ideal) x0 x1 (ix2 a b) = ratio x0 x1 a.val := by
  rw [val_main_v14_apply, val_main_v13_apply, val_main_v12_apply, val_main_cst_2_apply, inter_apply, union_apply]
  unfold ratio
  rw [dif_pos a.isLt]
  rfl

/-- The reference's result is the loss. -/
theorem result_eq (x0 x1 : (⟨S32x1x1024x1024, .f32⟩ : BufTy).Contents (Elt Ideal)) (i : S_.Idx) :
    val_main_v17 (F := Ideal) x0 x1 i = loss x0 x1 := by
  rw [val_main_v17_apply, val_main_v16_apply, val_main_v15_apply, val_main_cst_5_apply, val_main_cst_4_apply,
    val_main_cst_3_apply]
  simp only [Ideal.mulf_def, Ideal.hostDivf_def, Ideal.ofBits_def, Ideal.ofBits_zero_f32, zero_add]
  rw [mean_times_100]
  unfold loss
  refine congrArg (fun u : EReal => u * Ideal.ofBits .f32 0x40480000#32) ?_
  calc ∑ j : S32x1.Idx, val_main_v14 (F := Ideal) x0 x1 j
      = ∑ a : Fin 32, ∑ b : Fin 1, val_main_v14 (F := Ideal) x0 x1 (ix2 a b) := sum_idx2 _
    _ = ∑ a : Fin 32, ∑ b : Fin 1, ratio x0 x1 a.val :=
        Finset.sum_congr rfl fun a _ => Finset.sum_congr rfl fun b _ => ratio_apply x0 x1 a b
    _ = ∑ a : Fin 32, ratio x0 x1 a.val := by simp
    _ = ∑ n ∈ Finset.range 32, ratio x0 x1 n := Fin.sum_univ_eq_sum_range (fun n => ratio x0 x1 n) 32

end Cert.ReferenceIdeal.RefValue

end
-- ==== Proof.lean ====
/-
  The certificate's five claims for the Jaccard-loss kernel against its reference.

  Both programs compute, over the extended reals, one function of the two argument arrays (Proof/Spec.lean): for each
  of the 32 images the number of positions where both entries equal one, divided by the number where at least one
  does plus ε; the 32 quotients summed; the sum times 100/32. The kernel counts by float sums of zero-or-one values
  along columns and then rows, keeps a running total across its 32 grid points and multiplies it by 3.125 at the last
  one (Proof/KernelPay.lean, KernelValue.lean, KernelRun.lean). The reference counts by a wrapping 32-bit integer
  sum — which cannot wrap below 2^31 ones — converted to a float, sums the quotients, divides by 32 and multiplies by
  100 (Proof/RefValue.lean). Dividing by 32 and multiplying by 100 is multiplying by 3.125 on every extended real, so
  no finiteness of the inputs is used.

  The three frames are the generated ones (the reference's is its generated run with the result dropped); the ideal
  pass rewrote nothing, so the idealization claim is trivial.
-/
import proofs.«149590_j56547539419669_2_alg».proof.Defs
import proofs.«149590_j56547539419669_2_alg».proof.Proof.Gen.Kernel
import proofs.«149590_j56547539419669_2_alg».proof.Proof.Gen.Kernel.Frame
import proofs.«149590_j56547539419669_2_alg».proof.Proof.Gen.KernelIdeal
import proofs.«149590_j56547539419669_2_alg».proof.Proof.Gen.KernelIdeal.Frame
import proofs.«149590_j56547539419669_2_alg».proof.Proof.Gen.ReferenceIdeal
import proofs.«149590_j56547539419669_2_alg».proof.Proof.Gen.ReferenceIdeal.Run
import proofs.«149590_j56547539419669_2_alg».proof.Proof.Gen.ReferenceIdeal.Read
import proofs.«149590_j56547539419669_2_alg».proof.Proof.Gen.Pre_finite_inputs
import proofs.«149590_j56547539419669_2_alg».proof.Proof.KernelRun
import proofs.«149590_j56547539419669_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the argument arrays: the kernel's by its run read point by point, the
    reference's by its run read operation by operation, the arguments agreeing. -/
theorem algebraic : Cert.algebraic_KernelIdeal_ReferenceIdeal := by
  intro m ρ m' ρ' _ hagree
  refine ⟨fun c => fun _ => Jaccard.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq]
  funext i
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
